-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S512x256 : Shape := ⟨2, ![512, 256]⟩
abbrev S128 : Shape := ⟨1, ![128]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x4096x256 .f32) (main_arg1 : FVec F S512x256 .f32) (main_arg2 : FVec F S128 .f32) (main_arg3 : FVec F S128 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x4096x256 : Shape := ⟨3, ![16, 4096, 256]⟩
abbrev S512x256 : Shape := ⟨2, ![512, 256]⟩
abbrev S128 : Shape := ⟨1, ![128]⟩
abbrev S16x128x128x128 : Shape := ⟨4, ![16, 128, 128, 128]⟩
abbrev S1x2048x256 : Shape := ⟨3, ![1, 2048, 256]⟩
abbrev S1x64x128x128 : Shape := ⟨4, ![1, 64, 128, 128]⟩
abbrev S1x1024x256 : Shape := ⟨3, ![1, 1024, 256]⟩
abbrev S1024x256 : Shape := ⟨2, ![1024, 256]⟩
abbrev S1024x512 : Shape := ⟨2, ![1024, 512]⟩
abbrev S1024x128 : Shape := ⟨2, ![1024, 128]⟩
abbrev S16x64x128 : Shape := ⟨3, ![16, 64, 128]⟩
abbrev S16x64 : Shape := ⟨2, ![16, 64]⟩
abbrev S16x64x1 : Shape := ⟨3, ![16, 64, 1]⟩
abbrev S1x1x128 : Shape := ⟨3, ![1, 1, 128]⟩
abbrev S16x64x1x128 : Shape := ⟨4, ![16, 64, 1, 128]⟩
abbrev S16x64x2x128 : Shape := ⟨4, ![16, 64, 2, 128]⟩
abbrev S16x128x128 : Shape := ⟨3, ![16, 128, 128]⟩
abbrev S16x1x128x128 : Shape := ⟨4, ![16, 1, 128, 128]⟩
abbrev S16x2x128x128 : Shape := ⟨4, ![16, 2, 128, 128]⟩
abbrev S32x128x128 : Shape := ⟨3, ![32, 128, 128]⟩
abbrev S1x32x128x128 : Shape := ⟨4, ![1, 32, 128, 128]⟩
abbrev S16x16384x128 : Shape := ⟨3, ![16, 16384, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x4096x256, .f32⟩
  | .hbm, ⟨1, _⟩ => ⟨S512x256, .f32⟩
  | .hbm, ⟨2, _⟩ => ⟨S128, .f32⟩
  | .hbm, ⟨3, _⟩ => ⟨S128, .f32⟩
  | .hbm, ⟨4, _⟩ => ⟨S512x256, .bf16⟩
  | .hbm, ⟨5, _⟩ => ⟨S16x128x128x128, .f32⟩
  | .hbm, ⟨6, _⟩ => ⟨S16x16384x128, .f32⟩
  | .local _ .vmem, ⟨0, _⟩ => ⟨S1x2048x256, .f32⟩
  | .local _ .vmem, ⟨1, _⟩ => ⟨S1x2048x256, .f32⟩
  | .local _ .vmem, ⟨2, _⟩ => ⟨S512x256, .bf16⟩
  | .local _ .vmem, ⟨3, _⟩ => ⟨S128, .f32⟩
  | .local _ .vmem, ⟨4, _⟩ => ⟨S128, .f32⟩
  | .local _ .vmem, ⟨5, _⟩ => ⟨S1x64x128x128, .f32⟩
  | .local _ .vmem, ⟨6, _⟩ => ⟨S1x64x128x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S128_S128_0 : ∀ a, (![0] : Fin 1 → Nat) a + S128.size a ≤ S128.size a
  h_S128 : 0 < S128.numel
  inb_S1x2048x256_S1x1024x256_0_0_0 : ∀ a, (![0, 0, 0] : Fin 3 → Nat) a + S1x1024x256.size a ≤ S1x2048x256.size a
  h_S1x1024x256 : 0 < S1x1024x256.numel
  shapeCasts_S1x1024x256_S1024x256 : S1x1024x256.ShapeCasts S1024x256
  slices_S1024x512_o0_0_S1024x128 : S1024x512.Slices ![0, 0] S1024x128
  shapeCasts_S1024x128_S16x64x128 : S1024x128.ShapeCasts S16x64x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  reduces_S16x64x128_S16x64 : S16x64x128.Reduces [2] S16x64
  shapeCasts_S16x64_S16x64x1 : S16x64.ShapeCasts S16x64x1
  broadcasts_S16x64x1_S16x64x128 : S16x64x1.Broadcasts S16x64x128
  shapeCasts_S128_S1x1x128 : S128.ShapeCasts S1x1x128
  broadcasts_S1x1x128_S16x64x128 : S1x1x128.Broadcasts S16x64x128
  shapeCasts_S16x64x128_S16x64x1x128 : S16x64x128.ShapeCasts S16x64x1x128
  concatenates_S16x64x1x128_S16x64x1x128_S16x64x2x128_d2 : Shape.Concatenates [S16x64x1x128, S16x64x1x128] S16x64x2x128 2
  shapeCasts_S16x64x2x128_S16x128x128 : S16x64x2x128.ShapeCasts S16x128x128
  shapeCasts_S16x128x128_S16x1x128x128 : S16x128x128.ShapeCasts S16x1x128x128
  concatenates_S16x1x128x128_S16x1x128x128_S16x2x128x128_d1 : Shape.Concatenates [S16x1x128x128, S16x1x128x128] S16x2x128x128 1
  shapeCasts_S16x2x128x128_S32x128x128 : S16x2x128x128.ShapeCasts S32x128x128
  inb_S1x64x128x128_S1x32x128x128_0_0_0_0 : ∀ a, (![0, 0, 0, 0] : Fin 4 → Nat) a + S1x32x128x128.size a ≤ S1x64x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  inb_S1x2048x256_S1x1024x256_0_1024_0 : ∀ a, (![0, 1024, 0] : Fin 3 → Nat) a + S1x1024x256.size a ≤ S1x2048x256.size a
  inb_S1x64x128x128_S1x32x128x128_0_32_0_0 : ∀ a, (![0, 32, 0, 0] : Fin 4 → Nat) a + S1x32x128x128.size a ≤ S1x64x128x128.size a
  shapeCasts_S16x128x128x128_S16x16384x128 : S16x128x128x128.ShapeCasts S16x16384x128
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x4096x256.size a
  hwx0_0 : ∀ i : grid0.Coords, EltTy.bits .f32 = 32 ∨ (Rect.block (s := S16x4096x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128x128.size a ≤ S16x128x128x128.size a
  hwx0_4 : ∀ i : grid0.Coords, EltTy.bits .f32 = 32 ∨ (Rect.block (s := S16x128x128x128) S1x64x128x128.size (cc0_transform_4 i) (hinb0_4 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S512x256 : Shape := ⟨2, ![512, 256]⟩
abbrev S128 : Shape := ⟨1, ![128]⟩
abbrev S16x4096x512 : Shape := ⟨3, ![16, 4096, 512]⟩
abbrev S16x64x64x2x2x128 : Shape := ⟨6, ![16, 64, 64, 2, 2, 128]⟩
abbrev S16x64x2x64x2x128 : Shape := ⟨6, ![16, 64, 2, 64, 2, 128]⟩
abbrev S16x16384x128 : Shape := ⟨3, ![16, 16384, 128]⟩
abbrev S_ : Shape := ⟨0, ![]⟩
abbrev S16x16384 : Shape := ⟨2, ![16, 16384]⟩
abbrev S16x16384x1 : Shape := ⟨3, ![16, 16384, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S512x256, .f32⟩
  | .hbm, ⟨2, _⟩ => ⟨S128, .f32⟩
  | .hbm, ⟨3, _⟩ => ⟨S128, .f32⟩
  | .hbm, ⟨4, _⟩ => ⟨S16x4096x512, .f32⟩
  | .hbm, ⟨5, _⟩ => ⟨S16x64x64x2x2x128, .f32⟩
  | .hbm, ⟨6, _⟩ => ⟨S16x64x2x64x2x128, .f32⟩
  | .hbm, ⟨7, _⟩ => ⟨S16x16384x128, .f32⟩
  | .hbm, ⟨8, _⟩ => ⟨S_, .f32⟩
  | .hbm, ⟨9, _⟩ => ⟨S16x16384, .f32⟩
  | .hbm, ⟨10, _⟩ => ⟨S16x16384x1, .f32⟩
  | .hbm, ⟨11, _⟩ => ⟨S_, .f32⟩
  | .hbm, ⟨12, _⟩ => ⟨S16x16384x1, .f32⟩
  | .hbm, ⟨13, _⟩ => ⟨S16x16384x1, .f32⟩
  | .hbm, ⟨14, _⟩ => ⟨S16x16384x128, .f32⟩
  | .hbm, ⟨15, _⟩ => ⟨S16x16384x128, .f32⟩
  | .hbm, ⟨16, _⟩ => ⟨S16x16384x128, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S_, .f32⟩
  | .hbm, ⟨21, _⟩ => ⟨S16x16384x1, .f32⟩
  | .hbm, ⟨22, _⟩ => ⟨S16x16384x1, .f32⟩
  | .hbm, ⟨23, _⟩ => ⟨S16x16384x128, .f32⟩
  | .hbm, ⟨24, _⟩ => ⟨S16x16384x128, .f32⟩
  | .hbm, ⟨25, _⟩ => ⟨S_, .f32⟩
  | .hbm, ⟨26, _⟩ => ⟨S16x16384x1, .f32⟩
  | .hbm, ⟨27, _⟩ => ⟨S16x16384x1, .f32⟩
  | .hbm, ⟨28, _⟩ => ⟨S16x16384x1, .f32⟩
  | .hbm, ⟨29, _⟩ => ⟨S16x16384x128, .f32⟩
  | .hbm, ⟨30, _⟩ => ⟨S16x16384x128, .f32⟩
  | .hbm, ⟨31, _⟩ => ⟨S1x1x128, .f32⟩
  | .hbm, ⟨32, _⟩ => ⟨S16x16384x128, .f32⟩
  | .hbm, ⟨33, _⟩ => ⟨S16x16384x128, .f32⟩
  | .hbm, ⟨34, _⟩ => ⟨S1x1x128, .f32⟩
  | .hbm, ⟨35, _⟩ => ⟨S16x16384x128, .f32⟩
  | .hbm, ⟨36, _⟩ => ⟨S16x16384x128, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S16x4096x512_S16x64x64x2x2x128 : S16x4096x512.ShapeCasts S16x64x64x2x2x128
  transposes_S16x64x64x2x2x128_S16x64x2x64x2x128_0_1_3_2_4_5 : S16x64x64x2x2x128.Transposes [0, 1, 3, 2, 4, 5] S16x64x2x64x2x128
  shapeCasts_S16x64x2x64x2x128_S16x16384x128 : S16x64x2x64x2x128.ShapeCasts S16x16384x128
  reducesTo_S16x16384x128_S16x16384_d2 : S16x16384x128.ReducesTo [2] S16x16384
  h_S_ : 0 < S_.numel
  bcast_S16x16384_S16x16384x1_0_1 : S16x16384.BroadcastsInDim S16x16384x1 (![0, 1] : Fin 2 → Fin S16x16384x1.rank)
  bcast_S_S16x16384x1 : S_.BroadcastsInDim S16x16384x1 (![] : Fin 0 → Fin S16x16384x1.rank)
  bcast_S16x16384x1_S16x16384x128_0_1_2 : S16x16384x1.BroadcastsInDim S16x16384x128 (![0, 1, 2] : Fin 3 → Fin S16x16384x128.rank)
  bcast_S128_S1x1x128_2 : S128.BroadcastsInDim S1x1x128 (![2] : Fin 1 → Fin S1x1x128.rank)
  bcast_S1x1x128_S16x16384x128_0_1_2 : S1x1x128.BroadcastsInDim S16x16384x128 (![0, 1, 2] : Fin 3 → Fin S16x16384x128.rank)
  dot_S16x4096x256_S512x256_S16x4096x512_2_1_01_0_n_n_wf : DotDims.WF S16x4096x256 S512x256 S16x4096x512 [2] [1] [0, 1] [0] [] []

variable [Facts₀]

def dot_S16x4096x256_S512x256_S16x4096x512_2_1_01_0_n_n : DotDims S16x4096x256 S512x256 S16x4096x512 where
  lhsContracting := [2]
  rhsContracting := [1]
  lhsNonContracting := [0, 1]
  rhsNonContracting := [0]
  lhsBatch := []
  rhsBatch := []
  wf := dot_S16x4096x256_S512x256_S16x4096x512_2_1_01_0_n_n_wf

class Facts : Prop extends Facts₀ where

variable [Facts]
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.LibLaneNorm.lean ====
/-
  Layer normalisation of the rows of an `[a, b, c]` array, at the ideal values.

  A row is the `c` entries `v (p, q, ·)`. Its normalisation with divisor `N`, offset `ε`, gain `g` and shift `β` is
    `(x_k − μ) · rsqrt (σ² + ε) · g_k + β_k`,  `μ = (∑_j x_j) / N`,  `σ² = (∑_j (x_j − μ)²) / N`
  on the extended reals (`lnRow`). `lnChain` is the same computation written with whole-array operations — a sum
  along the last axis, the result given a trailing unit axis, divided by a splat of `N`, spread back over the lanes,
  subtracted, squared, summed again, `ε` added, the reciprocal square root spread over the lanes, the gain and the shift
  given two leading unit axes and spread over the rows — and `lnChain_apply` says that its entry `(p, q, k)` is
  `lnRow` of row `(p, q)` at `k`. No finiteness is used: both sides are the same operations in the same order.
  Nothing here mentions a program: the extents are variables, the divisor and the offset are any two scalars, and the
  shape evidence is a hypothesis. It imports LibBlockOps (the `[a, b]` to `[a, b, 1]` cast and the `[a, b, 1]` to
  `[a, b, c]` broadcast read at an index).
-/
import Idealize.ShloMosaic.Lib.Pipeline.Value
import Idealize.ShloMosaic.Lib.ValueIdx
import Idealize.ShloMosaic.PureOps.Ideal.Laws
import proofs.«171228_j1425929142550_2_alg».proof.Proof.LibBlockOps

noncomputable section

namespace Cert.LibLaneNorm

open Idealize.ShloMosaic Idealize.ShloMosaic.ValueIdx Cert.LibBlockOps

/-- The mean of a row with divisor `N`. -/
def rowMean {n : ℕ} (N : EReal) (row : Fin n → EReal) : EReal := Ideal.div (∑ j, row j) N

/-- One row's layer normalisation on the extended reals. -/
def lnRow {n : ℕ} (N ε : EReal) (row g β : Fin n → EReal) (k : Fin n) : EReal :=
  (row k - rowMean N row) * Ideal.rsqrt (Ideal.div (∑ j, (row j - rowMean N row) * (row j - rowMean N row)) N + ε) * g k + β k

section Chain

variable {F : FTy → Type} [FloatOps F] {a b c : ℕ}

/-- The mean of every row as an `[a, b, 1]` column: the lane sum, a trailing unit axis, divided by the splat of `N`. -/
def meanCol (hred : (⟨3, ![a, b, c]⟩ : Shape).Reduces [2] ⟨2, ![a, b]⟩) (hφ : FKind.Formats .f32)
    (hacc : (0x00000000#32 : BitVec 32) = FKind.add.neutral .f32 hφ)
    (hk : (⟨2, ![a, b]⟩ : Shape).ShapeCasts ⟨3, ![a, b, 1]⟩) (N : F .f32) (v : FVec F ⟨3, ![a, b, c]⟩ .f32) : FVec F ⟨3, ![a, b, 1]⟩ .f32 :=
  divf (shapeCast ⟨3, ![a, b, 1]⟩ (multiReduction .add [2] ⟨2, ![a, b]⟩ v 0x00000000#32 hred hφ hacc) hk) (broadcast ⟨3, ![a, b, 1]⟩ N)

/-- Layer normalisation of every row of `v`, written with whole-array operations. -/
def lnChain (hred : (⟨3, ![a, b, c]⟩ : Shape).Reduces [2] ⟨2, ![a, b]⟩) (hφ : FKind.Formats .f32)
    (hacc : (0x00000000#32 : BitVec 32) = FKind.add.neutral .f32 hφ)
    (hk : (⟨2, ![a, b]⟩ : Shape).ShapeCasts ⟨3, ![a, b, 1]⟩) (hb : (⟨3, ![a, b, 1]⟩ : Shape).Broadcasts ⟨3, ![a, b, c]⟩)
    (h1 : (⟨1, ![c]⟩ : Shape).ShapeCasts ⟨3, ![1, 1, c]⟩) (h2 : (⟨3, ![1, 1, c]⟩ : Shape).Broadcasts ⟨3, ![a, b, c]⟩)
    (N ε : F .f32) (g β : FVec F ⟨1, ![c]⟩ .f32) (v : FVec F ⟨3, ![a, b, c]⟩ .f32) : FVec F ⟨3, ![a, b, c]⟩ .f32 :=
  addf (mulf (mulf (subf v (broadcastTo ⟨3, ![a, b, c]⟩ (meanCol hred hφ hacc hk N v) hb))
      (broadcastTo ⟨3, ![a, b, c]⟩ (rsqrt (addf
        (meanCol hred hφ hacc hk N (mulf (subf v (broadcastTo ⟨3, ![a, b, c]⟩ (meanCol hred hφ hacc hk N v) hb))
          (subf v (broadcastTo ⟨3, ![a, b, c]⟩ (meanCol hred hφ hacc hk N v) hb))))
        (broadcast ⟨3, ![a, b, 1]⟩ ε))) hb))
    (broadcastTo ⟨3, ![a, b, c]⟩ (shapeCast ⟨3, ![1, 1, c]⟩ g h1) h2))
    (broadcastTo ⟨3, ![a, b, c]⟩ (shapeCast ⟨3, ![1, 1, c]⟩ β h1) h2)

end Chain

section Read

variable {a b c : ℕ}

/-- The reduced index `(p, q)` of an `[a, b, c]` array with lane `f` put back on the last axis is `(p, q, f)`. -/
theorem lift_lane (h : (⟨3, ![a, b, c]⟩ : Shape).Reduces [2] (⟨2, ![a, b]⟩ : Shape)) (p : Fin a) (q : Fin b)
    (f : Fin ((⟨3, ![a, b, c]⟩ : Shape).size 2)) : h.lift (ix2 p q) f = ix3 p q (⟨f.val, f.isLt⟩ : Fin c) := by
  funext ax; apply Fin.ext
  fin_cases ax <;> rfl

/-- The sum along the last axis of an `[a, b, c]` array, read at `(p, q)`: the sum of row `(p, q)`. -/
theorem laneSum_apply (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun f _ => congrArg src (lift_lane h p q f)

/-- The column of row means reads, at `(p, q, 0)`, the mean of row `(p, q)`. -/
theorem meanCol_apply (hred : (⟨3, ![a, b, c]⟩ : Shape).Reduces [2] ⟨2, ![a, b]⟩) (hφ : FKind.Formats .f32)
    (hacc : (0x00000000#32 : BitVec 32) = FKind.add.neutral .f32 hφ)
    (hk : (⟨2, ![a, b]⟩ : Shape).ShapeCasts ⟨3, ![a, b, 1]⟩)
    (N : Ideal .f32) (v : FVec Ideal ⟨3, ![a, b, c]⟩ .f32) (p : Fin a) (q : Fin b) :
    meanCol hred hφ hacc hk N v (ix3 p q (0 : Fin 1)) = rowMean N (fun j => v (ix3 p q j)) := by
  unfold meanCol rowMean
  rw [divf_apply, shapeCast_ab_ab1_apply, laneSum_apply, broadcast_apply]

/-- The column of row means spread back over the lanes reads, at `(p, q, k)`, the mean of row `(p, q)`. -/
theorem meanCol_spread_apply (hred : (⟨3, ![a, b, c]⟩ : Shape).Reduces [2] ⟨2, ![a, b]⟩) (hφ : FKind.Formats .f32)
    (hacc : (0x00000000#32 : BitVec 32) = FKind.add.neutral .f32 hφ)
    (hk : (⟨2, ![a, b]⟩ : Shape).ShapeCasts ⟨3, ![a, b, 1]⟩) (hb : (⟨3, ![a, b, 1]⟩ : Shape).Broadcasts ⟨3, ![a, b, c]⟩)
    (N : Ideal .f32) (v : FVec Ideal ⟨3, ![a, b, c]⟩ .f32) (p : Fin a) (q : Fin b) (k : Fin c) :
    broadcastTo ⟨3, ![a, b, c]⟩ (meanCol hred hφ hacc hk N v) hb (ix3 p q k) = rowMean N (fun j => v (ix3 p q j)) := by
  rw [broadcastTo_ab1_abc_apply, meanCol_apply]

/-- A `[c]` vector given two leading unit axes and spread over the rows of `[a, b, c]` reads, at `(p, q, k)`, its
    entry `k`. -/
theorem laneVec_spread_apply {α : Type} (g : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ g h1) h2 (ix3 p q k) = g (ix1 k) := by
  rw [broadcastTo_apply (shapeCast ⟨3, ![1, 1, c]⟩ g h1) h2 (ix3 p q k) (ix3 (0 : Fin 1) (0 : Fin 1) k) (fun ax => by
    match ax with
    | ⟨0, _⟩ => rfl
    | ⟨1, _⟩ => rfl
    | ⟨2, _⟩ =>
      show k.val = if c = 1 then 0 else k.val
      split
      · have := k.isLt; omega
      · rfl)]
  exact shapeCast_apply g h1 _ _ (by
    rw [Shape.rowMajor_val_one, Shape.rowMajor_val_three]
    show k.val = (0 * 1 + 0) * c + k.val
    omega)

theorem rsqrt_apply {s : Shape} (x : FVec Ideal s .f32) (i : s.Idx) : rsqrt x i = Ideal.rsqrt (x i) := rfl

/-- THE CHAIN AT AN INDEX: entry `(p, q, k)` of the whole-array layer normalisation is the normalisation of row
    `(p, q)` at lane `k`. -/
theorem lnChain_apply (hred : (⟨3, ![a, b, c]⟩ : Shape).Reduces [2] ⟨2, ![a, b]⟩) (hφ : FKind.Formats .f32)
    (hacc : (0x00000000#32 : BitVec 32) = FKind.add.neutral .f32 hφ)
    (hk : (⟨2, ![a, b]⟩ : Shape).ShapeCasts ⟨3, ![a, b, 1]⟩) (hb : (⟨3, ![a, b, 1]⟩ : Shape).Broadcasts ⟨3, ![a, b, c]⟩)
    (h1 : (⟨1, ![c]⟩ : Shape).ShapeCasts ⟨3, ![1, 1, c]⟩) (h2 : (⟨3, ![1, 1, c]⟩ : Shape).Broadcasts ⟨3, ![a, b, c]⟩)
    (N ε : Ideal .f32) (g β : FVec Ideal ⟨1, ![c]⟩ .f32) (v : FVec Ideal ⟨3, ![a, b, c]⟩ .f32) (p : Fin a) (q : Fin b) (k : Fin c) :
    lnChain hred hφ hacc hk hb h1 h2 N ε g β v (ix3 p q k)
      = lnRow N ε (fun j => v (ix3 p q j)) (fun j => g (ix1 j)) (fun j => β (ix1 j)) k := by
  unfold lnChain lnRow
  rw [addf_apply, mulf_apply, mulf_apply, subf_apply, meanCol_spread_apply, laneVec_spread_apply, laneVec_spread_apply,
    broadcastTo_ab1_abc_apply, rsqrt_apply, addf_apply, broadcast_apply, meanCol_apply]
  simp only [mulf_apply, subf_apply, meanCol_spread_apply]
  rfl

end Read

end Cert.LibLaneNorm

end
-- ==== Proof.BodyTerm.lean ====
/-
  One half of the kernel body as one term.

  At a grid point the body works twice, on rows 0–1023 and on rows 1024–2047 of its `[1, 2048, 256]` input block, and
  each time does the same thing: the product of the 1024-row slab with the weights (`[1024, 256] × [512, 256]`, both
  last axes contracted), the product's 512 channels cut into four groups of 128 and each group's rows regrouped as
  16 image rows × 64 image columns, each group layer-normalised over its 128 channels, and the four normalised groups
  interleaved as the 2 × 2 sub-pixels of a `[1, 32, 128, 128]` tile. `halfTile` is that term. The printed body names
  its intermediate values in a different grouping for each half; `store_lo_eq` and `store_hi_eq` say that both stored
  values are `halfTile` of the half's slab (the two sides unfold to the same operations), and `out_eq` restates what the
  body leaves in the output block: two pieces, rows 0–31 and rows 32–63, each `halfTile` of its slab.
-/
import proofs.«171228_j1425929142550_2_alg».proof.Proof.Gen.KernelIdeal.Frame
import proofs.«171228_j1425929142550_2_alg».proof.Proof.LibLaneNorm

noncomputable section

namespace Cert.KernelIdeal.PatchBody

open Idealize.ShloMosaic Idealize.SL.Sem Cert.KernelIdeal Cert.KernelIdeal.Gen Cert.LibLaneNorm

variable {F : FTy → Type} [FloatOps F]

/-- Channels `off … off + 127` of the product, its 1024 rows regrouped as 16 × 64. -/
def group (off : ℕ) (hs : S1024x512.Slices ![0, off] S1024x128) (P : FVec F S1024x512 .f32) : FVec F S16x64x128 .f32 :=
  shapeCast S16x64x128 (extractStridedSlice S1024x128 ![0, off] P hs) shapeCasts_S1024x128_S16x64x128

/-- Layer normalisation over the 128 channels, divisor 128, the offset the body's literal. -/
def norm (γ β : Vec F S128 .f32) (v : FVec F S16x64x128 .f32) : FVec F S16x64x128 .f32 :=
  lnChain reduces_S16x64x128_S16x64 (.inl rfl) rfl shapeCasts_S16x64_S16x64x1 broadcasts_S16x64x1_S16x64x128
    shapeCasts_S128_S1x1x128 broadcasts_S1x1x128_S16x64x128 (Scalar.ofBits .f32 0x43000000#32) (Scalar.ofBits .f32 0x3727C5AC#32) γ β v

/-- Two arrays as the even and odd columns of one of twice the width. -/
def cols (ya yb : FVec F S16x64x128 .f32) : FVec F S16x128x128 .f32 :=
  shapeCast S16x128x128 (concatenate S16x64x2x128 2
    [⟨S16x64x1x128, shapeCast S16x64x1x128 ya shapeCasts_S16x64x128_S16x64x1x128⟩,
     ⟨S16x64x1x128, shapeCast S16x64x1x128 yb shapeCasts_S16x64x128_S16x64x1x128⟩]
    concatenates_S16x64x1x128_S16x64x1x128_S16x64x2x128_d2) shapeCasts_S16x64x2x128_S16x128x128

/-- Two arrays as the even and odd rows of one of twice the height, a unit axis in front. -/
def rows (za zb : FVec F S16x128x128 .f32) : FVec F S1x32x128x128 .f32 :=
  shapeCast S1x32x128x128 (shapeCast S32x128x128 (concatenate S16x2x128x128 1
    [⟨S16x1x128x128, shapeCast S16x1x128x128 za shapeCasts_S16x128x128_S16x1x128x128⟩,
     ⟨S16x1x128x128, shapeCast S16x1x128x128 zb shapeCasts_S16x128x128_S16x1x128x128⟩]
    concatenates_S16x1x128x128_S16x1x128x128_S16x2x128x128_d1) shapeCasts_S16x2x128x128_S32x128x128) shapeCasts_S32x128x128_S1x32x128x128

/-- One half of the body: product, four channel groups, four normalisations, the 2 × 2 interleave. -/
def halfTile (w : Vec F S512x256 .bf16) (γ β : Vec F S128 .f32) (x : Vec F S1x1024x256 .f32) : FVec F S1x32x128x128 .f32 :=
  rows (cols (norm γ β (group 0 slices_S1024x512_o0_0_S1024x128 (k0_pay3 w x)))
             (norm γ β (group 128 slices_S1024x512_o0_128_S1024x128 (k0_pay3 w x))))
       (cols (norm γ β (group 256 slices_S1024x512_o0_256_S1024x128 (k0_pay3 w x)))
             (norm γ β (group 384 slices_S1024x512_o0_384_S1024x128 (k0_pay3 w x))))

/-- The value stored to rows 0–31 of the output block is `halfTile` of the slab. -/
theorem store_lo_eq (w : Vec F S512x256 .bf16) (γ β : Vec F S128 .f32) (x : Vec F S1x1024x256 .f32) :
    k0_pay14 γ β (k0_pay6 w x) (k0_pay7 w γ β x) (k0_pay10 γ β (k0_pay4 w x) (k0_pay8 w x) (k0_pay9 (F := F)))
        (k0_pay11 γ β (k0_pay5 w x)) (k0_pay12 (k0_pay6 w x)) (k0_pay13 (k0_pay6 w x))
      = halfTile w γ β x := rfl

/-- The value stored to rows 32–63 of the output block is `halfTile` of the slab. -/
theorem store_hi_eq (w : Vec F S512x256 .bf16) (γ β : Vec F S128 .f32) (x : Vec F S1x1024x256 .f32) :
    k0_pay1 (k0_pay24 (k0_pay21 γ β (k0_pay16 (k0_pay2 w) x) (k0_pay20 (k0_pay2 w) x)) (k0_pay22 γ β (k0_pay17 (k0_pay2 w) x)))
        (k0_pay25 γ β (k0_pay18 (k0_pay2 w) x) (k0_pay23 (k0_pay18 (k0_pay2 w) x)) (Scalar.ofBits .f32 0x43000000#32))
        (k0_pay26 γ β (k0_pay19 (k0_pay2 w) x))
      = halfTile w γ β x := rfl

/-- What the body leaves in the output block: rows 32–63 from the second slab, rows 0–31 from the first. -/
theorem out_eq (x0 : Vec F S1x2048x256 .f32) (x1 : Vec F S512x256 .bf16) (x2 x3 : Vec F S128 .f32) :
    out0_4 x0 x1 x2 x3
      = View.canon [⟨r0_5, halfTile (View.ld x1 r0_0) (View.ld x2 r0_1) (View.ld x3 r0_1) (View.ld x0 r0_4)⟩,
          ⟨r0_3, halfTile (View.ld x1 r0_0) (View.ld x2 r0_1) (View.ld x3 r0_1) (View.ld x0 r0_2)⟩] := by
  unfold out0_4
  rw [store_lo_eq, store_hi_eq]

end Cert.KernelIdeal.PatchBody

end
-- ==== Proof.LibUnitAxes.lean ====
/-
  Layout operations on arrays with unit axes, read at an index written by coordinates.

  A per-item quantity (one number for each of `a` items) meets a grid of `b × c` positions by being laid out as an
  `[a, 1, 1]` array and broadcast to `[a, b, c]`; a per-position quantity meets the items as a `[1, b, c]` array broadcast
  the same way. Two `[a, b, c]` arrays are stacked as the two channels of an `[a, 2, b, c]` array by giving each a unit
  axis in position 1 and joining along it. A channel axis is moved between the last position and position 1 by a
  transpose. Each lemma below says which entry of the operand one of these operations reads at the index
  `ixN …`; all are over arbitrary extents and any element type.
-/
import Idealize.ShloMosaic.Lib.ValueLayout

namespace Idealize.ShloMosaic.ValueIdx

open Idealize.ShloMosaic

variable {α : Type}

/-! ## Unit axes dropped or added at the end or in the middle -/

/-- An `[a, 1]` column cast to the vector `[a]` reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to `[a, 1, 1]` reads, at `(i, u, v)`, the vector's entry `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, b, c]` array cast to `[a, 1, b, c]` reads, at `(i, u, j, k)`, the operand at `(i, j, k)`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-! ## Broadcasts at rank 3 -/

/-- An `[a, 1, 1]` array broadcast to `[a, b, c]` reads, at `(i, j, k)`, the operand's entry for item `i`. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand's entry for position `(j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A slice along the leading axis at rank 3 -/

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Two arrays stacked along a unit axis in position 1 -/

/-- Two `[a, 1, b, c]` arrays joined along axis 1 read, at channel `0`, the first. -/
theorem concatenate_a1bc_pair_apply_zero {a b c : ℕ} (x₁ x₂ : (⟨4, ![a, 1, b, c]⟩ : Shape).Idx → α)
    (h : Shape.Concatenates [(⟨4, ![a, 1, b, c]⟩ : Shape), ⟨4, ![a, 1, b, c]⟩] ⟨4, ![a, 2, b, c]⟩ (1 : Fin 4))
    (i : Fin a) (j : Fin b) (k : Fin c) :
    concatenate ⟨4, ![a, 2, b, c]⟩ (1 : Fin 4) [⟨⟨4, ![a, 1, b, c]⟩, x₁⟩, ⟨⟨4, ![a, 1, b, c]⟩, x₂⟩] h (ix4 i (0 : Fin 2) j k)
      = x₁ (ix4 i (0 : Fin 1) j k) :=
  concatenate_pair_apply_left (t := ⟨4, ![a, 2, b, c]⟩) (1 : Fin 4) x₁ x₂ h (ix4 i (0 : Fin 2) j k) rfl (ix4 i (0 : Fin 1) j k) (fun ax => by
    match ax with
    | ⟨0, _⟩ => rfl
    | ⟨1, _⟩ => rfl
    | ⟨2, _⟩ => rfl
    | ⟨3, _⟩ => rfl)

/-- Two `[a, 1, b, c]` arrays joined along axis 1 read, at channel `1`, the second. -/
theorem concatenate_a1bc_pair_apply_one {a b c : ℕ} (x₁ x₂ : (⟨4, ![a, 1, b, c]⟩ : Shape).Idx → α)
    (h : Shape.Concatenates [(⟨4, ![a, 1, b, c]⟩ : Shape), ⟨4, ![a, 1, b, c]⟩] ⟨4, ![a, 2, b, c]⟩ (1 : Fin 4))
    (i : Fin a) (j : Fin b) (k : Fin c) :
    concatenate ⟨4, ![a, 2, b, c]⟩ (1 : Fin 4) [⟨⟨4, ![a, 1, b, c]⟩, x₁⟩, ⟨⟨4, ![a, 1, b, c]⟩, x₂⟩] h (ix4 i (1 : Fin 2) j k)
      = x₂ (ix4 i (0 : Fin 1) j k) :=
  concatenate_pair_apply_right (t := ⟨4, ![a, 2, b, c]⟩) (1 : Fin 4) x₁ x₂ h (ix4 i (1 : Fin 2) j k) rfl rfl (ix4 i (0 : Fin 1) j k) (fun ax hne => by
    match ax with
    | ⟨0, _⟩ => rfl
    | ⟨1, _⟩ => exact absurd rfl hne
    | ⟨2, _⟩ => rfl
    | ⟨3, _⟩ => rfl) rfl

/-! ## A channel axis moved between the last position and position 1 -/

/-- An `[m, a, b, c]` array with its last axis moved to position 1 (permutation `[0, 3, 1, 2]`) reads, at
    `(n, k, i, j)`, the operand at `(n, i, j, k)`. -/
theorem transpose_ix4_0312_apply {m a b c : ℕ} (x : (⟨4, ![m, a, b, c]⟩ : Shape).Idx → α)
    (h : (⟨4, ![m, a, b, c]⟩ : Shape).Transposes [0, 3, 1, 2] ⟨4, ![m, c, a, b]⟩)
    (n : Fin m) (k : Fin c) (i : Fin a) (j : Fin b) :
    transpose ⟨4, ![m, c, a, b]⟩ [0, 3, 1, 2] x h (ix4 n k i j) = x (ix4 n i j k) :=
  transpose_apply _ x h _ _ fun d => match d with | ⟨0, _⟩ => rfl | ⟨1, _⟩ => rfl | ⟨2, _⟩ => rfl | ⟨3, _⟩ => rfl

/-- An `[m, c, a, b]` array with axis 1 moved to the last position (permutation `[0, 2, 3, 1]`) reads, at
    `(n, i, j, k)`, the operand at `(n, k, i, j)`. -/
theorem transpose_ix4_0231_apply {m a b c : ℕ} (x : (⟨4, ![m, c, a, b]⟩ : Shape).Idx → α)
    (h : (⟨4, ![m, c, a, b]⟩ : Shape).Transposes [0, 2, 3, 1] ⟨4, ![m, a, b, c]⟩)
    (n : Fin m) (i : Fin a) (j : Fin b) (k : Fin c) :
    transpose ⟨4, ![m, a, b, c]⟩ [0, 2, 3, 1] x h (ix4 n i j k) = x (ix4 n k i j) :=
  transpose_apply _ x h _ _ fun d => match d with | ⟨0, _⟩ => rfl | ⟨1, _⟩ => rfl | ⟨2, _⟩ => rfl | ⟨3, _⟩ => rfl

end Idealize.ShloMosaic.ValueIdx
-- ==== Proof.PixelShuffle.lean ====
/-
  Depth-to-space, read at an index.

  Four arrays `y00 y01 y10 y11` of shape `[16, 64, 128]` hold, for each of 16 image rows and 64 image columns, one
  128-channel vector per sub-pixel `(p1, p2)` of a 2 × 2 patch. They are interleaved into one `[32, 128, 128]` tile of
  the enlarged image: the two column sub-pixels side by side (a unit axis added after the column axis, the pair joined
  along it, the column axis and the pair merged: column `2·w + p2`), then the two row sub-pixels the same way one axis
  earlier (row `2·h + p1`), and a leading unit axis put in front. The lemmas below read each of these steps at an index
  written by coordinates, and `shuffle_apply` reads their composition: the tile at row `2·h + p1`, column `2·w + p2` is
  `y_{p1 p2}` at `(h, w)`.
-/
import Idealize.ShloMosaic.Lib.Pipeline.Value
import Idealize.ShloMosaic.Lib.ValueIdx
import Idealize.ShloMosaic.Lib.ValueLayout
import proofs.«171228_j1425929142550_2_alg».proof.Proof.LibUnitAxes

namespace Cert.PixelShuffle

open Idealize.ShloMosaic Idealize.ShloMosaic.ValueIdx

variable {α : Type}

/-- An `[a, b, c]` array cast to `[a, b, 1, c]` reads, at `(i, j, u, k)`, the operand at `(i, j, k)`. -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- Two `[a, b, 1, c]` arrays joined along axis 2 read, at position `0` of the pair, the first. -/
theorem concatenate_ab1c_pair_apply_zero {a b c : ℕ} (x₁ x₂ : (⟨4, ![a, b, 1, c]⟩ : Shape).Idx → α)
    (h : Shape.Concatenates [(⟨4, ![a, b, 1, c]⟩ : Shape), ⟨4, ![a, b, 1, c]⟩] ⟨4, ![a, b, 2, c]⟩ (2 : Fin 4))
    (i : Fin a) (j : Fin b) (k : Fin c) :
    concatenate ⟨4, ![a, b, 2, c]⟩ (2 : Fin 4) [⟨⟨4, ![a, b, 1, c]⟩, x₁⟩, ⟨⟨4, ![a, b, 1, c]⟩, x₂⟩] h (ix4 i j (0 : Fin 2) k)
      = x₁ (ix4 i j (0 : Fin 1) k) :=
  concatenate_pair_apply_left (t := ⟨4, ![a, b, 2, c]⟩) (2 : Fin 4) x₁ x₂ h (ix4 i j (0 : Fin 2) k) rfl (ix4 i j (0 : Fin 1) k) (fun ax => by
    match ax with
    | ⟨0, _⟩ => rfl
    | ⟨1, _⟩ => rfl
    | ⟨2, _⟩ => rfl
    | ⟨3, _⟩ => rfl)

/-- Two `[a, b, 1, c]` arrays joined along axis 2 read, at position `1` of the pair, the second. -/
theorem concatenate_ab1c_pair_apply_one {a b c : ℕ} (x₁ x₂ : (⟨4, ![a, b, 1, c]⟩ : Shape).Idx → α)
    (h : Shape.Concatenates [(⟨4, ![a, b, 1, c]⟩ : Shape), ⟨4, ![a, b, 1, c]⟩] ⟨4, ![a, b, 2, c]⟩ (2 : Fin 4))
    (i : Fin a) (j : Fin b) (k : Fin c) :
    concatenate ⟨4, ![a, b, 2, c]⟩ (2 : Fin 4) [⟨⟨4, ![a, b, 1, c]⟩, x₁⟩, ⟨⟨4, ![a, b, 1, c]⟩, x₂⟩] h (ix4 i j (1 : Fin 2) k)
      = x₂ (ix4 i j (0 : Fin 1) k) :=
  concatenate_pair_apply_right (t := ⟨4, ![a, b, 2, c]⟩) (2 : Fin 4) x₁ x₂ h (ix4 i j (1 : Fin 2) k) rfl rfl (ix4 i j (0 : Fin 1) k) (fun ax hne => by
    match ax with
    | ⟨0, _⟩ => rfl
    | ⟨1, _⟩ => rfl
    | ⟨2, _⟩ => exact absurd rfl hne
    | ⟨3, _⟩ => rfl) rfl

/-- A `[16, 64, 2, 128]` array with its column axis and the pair merged reads, at column `2·w + p`, the operand at
    `(w, p)`. -/
theorem shapeCast_merge_cols (x : (⟨4, ![16, 64, 2, 128]⟩ : Shape).Idx → α)
    (h : (⟨4, ![16, 64, 2, 128]⟩ : Shape).ShapeCasts ⟨3, ![16, 128, 128]⟩)
    (i : Fin 16) (w : Fin 64) (p : Fin 2) (k : Fin 128) (C : Fin 128) (hC : C.val = 2 * w.val + p.val) :
    shapeCast ⟨3, ![16, 128, 128]⟩ x h (ix3 i C k) = x (ix4 i w p k) :=
  shapeCast_apply x h _ _ (by
    rw [Shape.rowMajor_val_four, Shape.rowMajor_val_three]
    show ((i.val * 64 + w.val) * 2 + p.val) * 128 + k.val = (i.val * 128 + C.val) * 128 + k.val
    omega)

/-- A `[16, 2, 128, 128]` array with its row axis and the pair merged reads, at row `2·i + p`, the operand at
    `(i, p)`. -/
theorem shapeCast_merge_rows (x : (⟨4, ![16, 2, 128, 128]⟩ : Shape).Idx → α)
    (h : (⟨4, ![16, 2, 128, 128]⟩ : Shape).ShapeCasts ⟨3, ![32, 128, 128]⟩)
    (i : Fin 16) (p : Fin 2) (C : Fin 128) (k : Fin 128) (R : Fin 32) (hR : R.val = 2 * i.val + p.val) :
    shapeCast ⟨3, ![32, 128, 128]⟩ x h (ix3 R C k) = x (ix4 i p C k) :=
  shapeCast_apply x h _ _ (by
    rw [Shape.rowMajor_val_four, Shape.rowMajor_val_three]
    show ((i.val * 2 + p.val) * 128 + C.val) * 128 + k.val = (R.val * 128 + C.val) * 128 + k.val
    omega)

/-- The sub-pixel `(p1, p2)`'s array among the four. -/
def pick (p1 p2 : Fin 2) (y00 y01 y10 y11 : (⟨3, ![16, 64, 128]⟩ : Shape).Idx → α) : (⟨3, ![16, 64, 128]⟩ : Shape).Idx → α :=
  match p1, p2 with
  | ⟨0, _⟩, ⟨0, _⟩ => y00
  | ⟨0, _⟩, ⟨1, _⟩ => y01
  | ⟨1, _⟩, ⟨0, _⟩ => y10
  | ⟨1, _⟩, ⟨1, _⟩ => y11

/-- The two column sub-pixels side by side: a `[16, 128, 128]` array whose column `2·w + p2` is `y_{p2}`'s column `w`. -/
theorem cols_apply (ya yb : (⟨3, ![16, 64, 128]⟩ : Shape).Idx → α)
    (hc : (⟨3, ![16, 64, 128]⟩ : Shape).ShapeCasts ⟨4, ![16, 64, 1, 128]⟩)
    (hj : Shape.Concatenates [(⟨4, ![16, 64, 1, 128]⟩ : Shape), ⟨4, ![16, 64, 1, 128]⟩] ⟨4, ![16, 64, 2, 128]⟩ (2 : Fin 4))
    (hm : (⟨4, ![16, 64, 2, 128]⟩ : Shape).ShapeCasts ⟨3, ![16, 128, 128]⟩)
    (i : Fin 16) (w : Fin 64) (p2 : Fin 2) (k : Fin 128) (C : Fin 128) (hC : C.val = 2 * w.val + p2.val) :
    shapeCast ⟨3, ![16, 128, 128]⟩ (concatenate ⟨4, ![16, 64, 2, 128]⟩ (2 : Fin 4)
        [⟨⟨4, ![16, 64, 1, 128]⟩, shapeCast ⟨4, ![16, 64, 1, 128]⟩ ya hc⟩, ⟨⟨4, ![16, 64, 1, 128]⟩, shapeCast ⟨4, ![16, 64, 1, 128]⟩ yb hc⟩] hj) hm (ix3 i C k)
      = (match p2 with | ⟨0, _⟩ => ya | ⟨1, _⟩ => yb) (ix3 i w k) := by
  rw [shapeCast_merge_cols _ hm i w p2 k C hC]
  match p2 with
  | ⟨0, _⟩ => rw [show ix4 i w (⟨0, by omega⟩ : Fin 2) k = ix4 i w (0 : Fin 2) k from rfl, concatenate_ab1c_pair_apply_zero, shapeCast_abc_ab1c_apply]
  | ⟨1, _⟩ => rw [show ix4 i w (⟨1, by omega⟩ : Fin 2) k = ix4 i w (1 : Fin 2) k from rfl, concatenate_ab1c_pair_apply_one, shapeCast_abc_ab1c_apply]

/-- The two row sub-pixels one above the other, with a unit axis in front: a `[1, 32, 128, 128]` tile whose row
    `2·i + p1` is `z_{p1}`'s row `i`. -/
theorem rows_apply (za zb : (⟨3, ![16, 128, 128]⟩ : Shape).Idx → α)
    (hc : (⟨3, ![16, 128, 128]⟩ : Shape).ShapeCasts ⟨4, ![16, 1, 128, 128]⟩)
    (hj : Shape.Concatenates [(⟨4, ![16, 1, 128, 128]⟩ : Shape), ⟨4, ![16, 1, 128, 128]⟩] ⟨4, ![16, 2, 128, 128]⟩ (1 : Fin 4))
    (hm : (⟨4, ![16, 2, 128, 128]⟩ : Shape).ShapeCasts ⟨3, ![32, 128, 128]⟩)
    (hu : (⟨3, ![32, 128, 128]⟩ : Shape).ShapeCasts ⟨4, ![1, 32, 128, 128]⟩)
    (i : Fin 16) (p1 : Fin 2) (C : Fin 128) (k : Fin 128) (R : Fin 32) (hR : R.val = 2 * i.val + p1.val) :
    shapeCast ⟨4, ![1, 32, 128, 128]⟩ (shapeCast ⟨3, ![32, 128, 128]⟩ (concatenate ⟨4, ![16, 2, 128, 128]⟩ (1 : Fin 4)
        [⟨⟨4, ![16, 1, 128, 128]⟩, shapeCast ⟨4, ![16, 1, 128, 128]⟩ za hc⟩, ⟨⟨4, ![16, 1, 128, 128]⟩, shapeCast ⟨4, ![16, 1, 128, 128]⟩ zb hc⟩] hj) hm) hu
        (ix4 (0 : Fin 1) R C k)
      = (match p1 with | ⟨0, _⟩ => za | ⟨1, _⟩ => zb) (ix3 i C k) := by
  rw [shapeCast_abc_1abc_apply, shapeCast_merge_rows _ hm i p1 C k R hR]
  match p1 with
  | ⟨0, _⟩ => rw [show ix4 i (⟨0, by omega⟩ : Fin 2) C k = ix4 i (0 : Fin 2) C k from rfl, concatenate_a1bc_pair_apply_zero, shapeCast_abc_a1bc_apply]
  | ⟨1, _⟩ => rw [show ix4 i (⟨1, by omega⟩ : Fin 2) C k = ix4 i (1 : Fin 2) C k from rfl, concatenate_a1bc_pair_apply_one, shapeCast_abc_a1bc_apply]

end Cert.PixelShuffle
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.HalfRead.lean ====
/-
  One half of the kernel body, read at an index at the ideal values.

  Write an index of the `[1, 32, 128, 128]` tile as `(0, 2·i + p1, 2·w + p2, k)`: image row `i`, image column `w`,
  sub-pixel `(p1, p2)`, channel `k`. The tile there is the layer normalisation, at channel `k`, of the 128 numbers
    `j ↦ ∑_d x (0, 64·i + w, d) · W (256·p1 + 128·p2 + j, d)`:
  row `64·i + w` of the slab times the weights' rows `256·p1 + 128·p2 + j` — the product's channel group `2·p1 + p2`.
  The steps: the product into a zero accumulator as a sum over the contracted axis, a channel group as a cut along the
  channels with the rows regrouped, the normalisation row by row, and the interleave.
-/
import proofs.«171228_j1425929142550_2_alg».proof.Proof.BodyTerm
import proofs.«171228_j1425929142550_2_alg».proof.Proof.PixelShuffle
import proofs.«171228_j1425929142550_2_alg».proof.Proof.LibMergeRows
import proofs.«171228_j1425929142550_2_alg».proof.Proof.LibBlockOps

noncomputable section

namespace Cert.KernelIdeal.PatchBody

open Idealize.ShloMosaic Idealize.SL.Sem Cert.KernelIdeal Cert.KernelIdeal.Gen Cert.LibLaneNorm
open Idealize.ShloMosaic.ValueIdx Cert.PixelShuffle Cert.LibMergeRows Cert.LibBlockOps

/-- Row `64·i + w` of a 1024-row slab: image row `i`, image column `w`. -/
def slabRow (i : Fin 16) (w : Fin 64) : Fin 1024 := mergeIdx (by decide : 1024 = 16 * 64) i w

theorem slabRow_val (i : Fin 16) (w : Fin 64) : (slabRow i w).val = i.val * 64 + w.val := rfl

/-- Channel `256·p1 + 128·p2 + j` of the product: sub-pixel `(p1, p2)`, channel `j`. -/
def chan (p1 p2 : Fin 2) (j : Fin 128) : Fin 512 := ⟨p1.val * 256 + p2.val * 128 + j.val, by omega⟩

theorem dot_lhs0 (i : S1024x512.Idx) (q : (dot_S1024x256_S512x256_S1024x512_1_1_0_0_n_n).contr.Idx) : ((dot_S1024x256_S512x256_S1024x512_1_1_0_0_n_n).lhsIdx i q 0).val = (i 0).val := by
  unfold DotDims.lhsIdx
  rw [dif_neg (show ¬(0 : Fin S1024x256.rank) ∈ (dot_S1024x256_S512x256_S1024x512_1_1_0_0_n_n).lhsBatch by decide),
    dif_pos (show (0 : Fin S1024x256.rank) ∈ (dot_S1024x256_S512x256_S1024x512_1_1_0_0_n_n).lhsNonContracting by decide)]
  rfl
theorem dot_lhs1 (i : S1024x512.Idx) (q : (dot_S1024x256_S512x256_S1024x512_1_1_0_0_n_n).contr.Idx) : ((dot_S1024x256_S512x256_S1024x512_1_1_0_0_n_n).lhsIdx i q 1).val = (q ⟨0, by decide⟩).val :=
  (dot_S1024x256_S512x256_S1024x512_1_1_0_0_n_n).lhsIdx_val_of_single rfl i q
theorem dot_rhs0 (i : S1024x512.Idx) (q : (dot_S1024x256_S512x256_S1024x512_1_1_0_0_n_n).contr.Idx) : ((dot_S1024x256_S512x256_S1024x512_1_1_0_0_n_n).rhsIdx i q 0).val = (i 1).val := by
  unfold DotDims.rhsIdx
  rw [dif_neg (show ¬(0 : Fin S512x256.rank) ∈ (dot_S1024x256_S512x256_S1024x512_1_1_0_0_n_n).rhsBatch by decide),
    dif_pos (show (0 : Fin S512x256.rank) ∈ (dot_S1024x256_S512x256_S1024x512_1_1_0_0_n_n).rhsNonContracting by decide)]
  rfl
theorem dot_rhs1 (i : S1024x512.Idx) (q : (dot_S1024x256_S512x256_S1024x512_1_1_0_0_n_n).contr.Idx) : ((dot_S1024x256_S512x256_S1024x512_1_1_0_0_n_n).rhsIdx i q 1).val = (q ⟨0, by decide⟩).val :=
  (dot_S1024x256_S512x256_S1024x512_1_1_0_0_n_n).rhsIdx_val_of_single rfl i q

/-- The slab's product with the weights at `(r, e)`: the sum over `d` of slab row `r` times weight row `e`. -/
theorem prod_apply (w : FVec Ideal S512x256 .bf16) (x : FVec Ideal S1x1024x256 .f32) (r : Fin 1024) (e : Fin 512) :
    k0_pay3 w x (ix2 r e) = ∑ d : Fin 256, x (ix3 (0 : Fin 1) r d) * w (ix2 e d) := by
  show FloatOps.matmul (dot_S1024x256_S512x256_S1024x512_1_1_0_0_n_n) none
      (truncf .bf16 (shapeCast S1024x256 x shapeCasts_S1x1024x256_S1024x256) bitsLt_bf16_f32)
      (shapeCast S512x256 w shapeCasts_S512x256_S512x256) (constant S1024x512 .f32 0x00000000#32) (ix2 r e) = _
  rw [matmul_zero_nt_ix2 (dot_S1024x256_S512x256_S1024x512_1_1_0_0_n_n) rfl rfl dot_lhs0 dot_lhs1 dot_rhs0 dot_rhs1]
  refine Finset.sum_congr rfl fun d _ => ?_
  rw [truncf_apply, shapeCast_1ab_ab_apply, shapeCast_self]

/-- A channel group at `(i, w, j)`: the product at row `64·i + w`, channel `off + j`. -/
theorem group_apply (off : ℕ) (hs : S1024x512.Slices ![0, off] S1024x128) (P : FVec Ideal S1024x512 .f32)
    (i : Fin 16) (w : Fin 64) (j : Fin 128) (e : Fin 512) (he : e.val = off + j.val) :
    group off hs P (ix3 i w j) = P (ix2 (slabRow i w) e) := by
  unfold group slabRow
  rw [shapeCast_rc_abc_apply _ _ (by decide : 1024 = 16 * 64) i w j, slice2_axis1_apply off P hs _ j e he]

/-- A normalised channel group at `(i, w, k)`: the layer normalisation of slab row `64·i + w` times the group's 128
    weight rows. -/
theorem norm_group_apply (w : Vec Ideal S512x256 .bf16) (γ β : Vec Ideal S128 .f32) (x : Vec Ideal S1x1024x256 .f32)
    (off : ℕ) (hs : S1024x512.Slices ![0, off] S1024x128) (p1 p2 : Fin 2) (hoff : off = p1.val * 256 + p2.val * 128)
    (i : Fin 16) (w' : Fin 64) (k : Fin 128) :
    norm γ β (group off hs (k0_pay3 w x)) (ix3 i w' k)
      = lnRow (Ideal.ofBits .f32 0x43000000#32) (Ideal.ofBits .f32 0x3727C5AC#32)
          (fun j => ∑ d : Fin 256, x (ix3 (0 : Fin 1) (slabRow i w') d) * w (ix2 (chan p1 p2 j) d))
          (fun j => γ (ix1 j)) (fun j => β (ix1 j)) k := by
  unfold norm
  refine (lnChain_apply _ _ _ _ _ _ _ _ _ _ _ _ i w' k).trans ?_
  refine congrArg (fun row => lnRow _ _ row _ _ k) (funext fun j => ?_)
  rw [group_apply off hs _ i w' j (chan p1 p2 j) (by subst hoff; rfl), prod_apply]

/-- THE HALF TILE AT AN INDEX. -/
theorem halfTile_apply (w : Vec Ideal S512x256 .bf16) (γ β : Vec Ideal S128 .f32) (x : Vec Ideal S1x1024x256 .f32)
    (i : Fin 16) (w' : Fin 64) (p1 p2 : Fin 2) (k : Fin 128) (R : Fin 32) (C : Fin 128)
    (hR : R.val = 2 * i.val + p1.val) (hC : C.val = 2 * w'.val + p2.val) :
    halfTile w γ β x (ix4 (0 : Fin 1) R C k)
      = lnRow (Ideal.ofBits .f32 0x43000000#32) (Ideal.ofBits .f32 0x3727C5AC#32)
          (fun j => ∑ d : Fin 256, x (ix3 (0 : Fin 1) (slabRow i w') d) * w (ix2 (chan p1 p2 j) d))
          (fun j => γ (ix1 j)) (fun j => β (ix1 j)) k := by
  unfold halfTile rows
  rw [rows_apply _ _ shapeCasts_S16x128x128_S16x1x128x128 concatenates_S16x1x128x128_S16x1x128x128_S16x2x128x128_d1
    shapeCasts_S16x2x128x128_S32x128x128 shapeCasts_S32x128x128_S1x32x128x128 i p1 C k R hR]
  unfold cols
  match p1, p2 with
  | ⟨0, _⟩, ⟨0, _⟩ =>
    exact (cols_apply _ _ shapeCasts_S16x64x128_S16x64x1x128 concatenates_S16x64x1x128_S16x64x1x128_S16x64x2x128_d2
      shapeCasts_S16x64x2x128_S16x128x128 i w' ⟨0, by omega⟩ k C hC).trans
      (norm_group_apply w γ β x 0 _ ⟨0, by omega⟩ ⟨0, by omega⟩ rfl i w' k)
  | ⟨0, _⟩, ⟨1, _⟩ =>
    exact (cols_apply _ _ shapeCasts_S16x64x128_S16x64x1x128 concatenates_S16x64x1x128_S16x64x1x128_S16x64x2x128_d2
      shapeCasts_S16x64x2x128_S16x128x128 i w' ⟨1, by omega⟩ k C hC).trans
      (norm_group_apply w γ β x 128 _ ⟨0, by omega⟩ ⟨1, by omega⟩ rfl i w' k)
  | ⟨1, _⟩, ⟨0, _⟩ =>
    exact (cols_apply _ _ shapeCasts_S16x64x128_S16x64x1x128 concatenates_S16x64x1x128_S16x64x1x128_S16x64x2x128_d2
      shapeCasts_S16x64x2x128_S16x128x128 i w' ⟨0, by omega⟩ k C hC).trans
      (norm_group_apply w γ β x 256 _ ⟨1, by omega⟩ ⟨0, by omega⟩ rfl i w' k)
  | ⟨1, _⟩, ⟨1, _⟩ =>
    exact (cols_apply _ _ shapeCasts_S16x64x128_S16x64x1x128 concatenates_S16x64x1x128_S16x64x1x128_S16x64x2x128_d2
      shapeCasts_S16x64x2x128_S16x128x128 i w' ⟨1, by omega⟩ k C hC).trans
      (norm_group_apply w γ β x 384 _ ⟨1, by omega⟩ ⟨1, by omega⟩ rfl i w' k)

end Cert.KernelIdeal.PatchBody

end
-- ==== Proof.BlockValue.lean ====
/-
  What the body leaves in the output block, as one function of the four input blocks.

  The output block is `[1, 64, 128, 128]`: 64 rows and 128 columns of the enlarged image, 128 channels. Its entry
  `(0, R, C, k)` is the layer normalisation, at channel `k`, of input-block row `64·(R / 2) + C / 2` times the weights'
  rows `256·(R % 2) + 128·(C % 2) + j`, `j < 128` (`blockAt`). Rows 0–31 come from the first half of the body, which reads
  input rows 0–1023, rows 32–63 from the second, which reads input rows 1024–2047: `R / 2 < 16` in the first case and
  `R / 2 ≥ 16` in the second, so the one formula covers both halves.
-/
import proofs.«171228_j1425929142550_2_alg».proof.Proof.HalfRead

noncomputable section

namespace Cert.KernelIdeal.PatchBody

open Idealize.ShloMosaic Idealize.SL.Sem Cert.KernelIdeal Cert.KernelIdeal.Gen Cert.LibLaneNorm
open Idealize.ShloMosaic.ValueIdx Cert.PixelShuffle Cert.LibMergeRows Cert.LibBlockOps

theorem hz1 : (![0] : Fin 1 → Nat) = fun _ => 0 := funext fun a => by fin_cases a <;> rfl
theorem hz2 : (![0, 0] : Fin 2 → Nat) = fun _ => 0 := funext fun a => by fin_cases a <;> rfl

/-- The input-block row that output-block position `(R, C)` is computed from. -/
def blkRow (R : Fin 64) (C : Fin 128) : Fin 2048 := ⟨R.val / 2 * 64 + C.val / 2, by omega⟩

/-- The weight row that channel `j` of output-block position `(R, C)` is computed from. -/
def blkChan (R : Fin 64) (C : Fin 128) (j : Fin 128) : Fin 512 := ⟨R.val % 2 * 256 + C.val % 2 * 128 + j.val, by omega⟩

/-- Entry `(0, R, C, k)` of the output block, from the input blocks. -/
def blockAt (x0 : Vec Ideal S1x2048x256 .f32) (x1 : Vec Ideal S512x256 .bf16) (x2 x3 : Vec Ideal S128 .f32)
    (R : Fin 64) (C : Fin 128) (k : Fin 128) : Ideal .f32 :=
  lnRow (Ideal.ofBits .f32 0x43000000#32) (Ideal.ofBits .f32 0x3727C5AC#32)
    (fun j => ∑ d : Fin 256, x0 (ix3 (0 : Fin 1) (blkRow R C) d) * x1 (ix2 (blkChan R C j) d))
    (fun j => x2 (ix1 j)) (fun j => x3 (ix1 j)) k

/-- The output block after the body, from the input blocks. -/
def blockFn (x0 : Vec Ideal S1x2048x256 .f32) (x1 : Vec Ideal S512x256 .bf16) (x2 x3 : Vec Ideal S128 .f32) :
    Vec Ideal S1x64x128x128 .f32 := fun y => blockAt x0 x1 x2 x3 (y 1) (y 2) (y 3)

/-- The first slab (input rows 0–1023), loaded, at `(0, r, d)`. -/
theorem ld_lo_apply (x0 : Vec Ideal S1x2048x256 .f32) (r : Fin 1024) (d : Fin 256) (r' : Fin 2048) (hr : r'.val = r.val) :
    View.ld x0 r0_2 (ix3 (0 : Fin 1) r d) = x0 (ix3 (0 : Fin 1) r' d) :=
  congrArg x0 (funext fun a => Fin.ext (by
    match a with
    | ⟨0, _⟩ => rfl
    | ⟨1, _⟩ => show 0 + 1 * r.val = r'.val; omega
    | ⟨2, _⟩ => show 0 + 1 * d.val = d.val; omega))

/-- The second slab (input rows 1024–2047), loaded, at `(0, r, d)`. -/
theorem ld_hi_apply (x0 : Vec Ideal S1x2048x256 .f32) (r : Fin 1024) (d : Fin 256) (r' : Fin 2048) (hr : r'.val = 1024 + r.val) :
    View.ld x0 r0_4 (ix3 (0 : Fin 1) r d) = x0 (ix3 (0 : Fin 1) r' d) :=
  congrArg x0 (funext fun a => Fin.ext (by
    match a with
    | ⟨0, _⟩ => rfl
    | ⟨1, _⟩ => show 1024 + 1 * r.val = r'.val; omega
    | ⟨2, _⟩ => show 0 + 1 * d.val = d.val; omega))

/-- The first half's tile at `(0, R, C, k)`, `R < 32`, is the block's entry `(0, R, C, k)`. -/
theorem lo_piece (x0 : Vec Ideal S1x2048x256 .f32) (x1 : Vec Ideal S512x256 .bf16) (x2 x3 : Vec Ideal S128 .f32)
    (R : Fin 32) (C : Fin 128) (k : Fin 128) (R' : Fin 64) (C' k' : Fin 128) (hR : R'.val = R.val) (hC : C'.val = C.val)
    (hk : k'.val = k.val) :
    halfTile (View.ld x1 r0_0) (View.ld x2 r0_1) (View.ld x3 r0_1) (View.ld x0 r0_2) (ix4 (0 : Fin 1) R C k)
      = blockAt x0 x1 x2 x3 R' C' k' := by
  obtain rfl : C = C' := (Fin.ext hC).symm
  obtain rfl : k = k' := (Fin.ext hk).symm
  rw [halfTile_apply _ _ _ _ ⟨R.val / 2, by omega⟩ ⟨C.val / 2, by omega⟩ ⟨R.val % 2, by omega⟩ ⟨C.val % 2, by omega⟩ k R C
    (by show R.val = 2 * (R.val / 2) + R.val % 2; omega) (by show C.val = 2 * (C.val / 2) + C.val % 2; omega)]
  unfold blockAt
  rw [View.ld_unit_zero (S := S512x256) hz2, View.ld_unit_zero (S := S128) hz1 _ x2, View.ld_unit_zero (S := S128) hz1 _ x3]
  refine congrArg (fun row => lnRow _ _ row _ _ k) (funext fun j => Finset.sum_congr rfl fun d _ => ?_)
  rw [ld_lo_apply x0 _ d (blkRow R' C) (by show R'.val / 2 * 64 + C.val / 2 = R.val / 2 * 64 + C.val / 2; rw [hR])]
  exact congrArg (fun e => x0 (ix3 (0 : Fin 1) (blkRow R' C) d) * x1 (ix2 e d)) (Fin.ext (by
    show R.val % 2 * 256 + C.val % 2 * 128 + j.val = R'.val % 2 * 256 + C.val % 2 * 128 + j.val; rw [hR]))

/-- The second half's tile at `(0, R, C, k)`, `R < 32`, is the block's entry `(0, 32 + R, C, k)`. -/
theorem hi_piece (x0 : Vec Ideal S1x2048x256 .f32) (x1 : Vec Ideal S512x256 .bf16) (x2 x3 : Vec Ideal S128 .f32)
    (R : Fin 32) (C : Fin 128) (k : Fin 128) (R' : Fin 64) (C' k' : Fin 128) (hR : R'.val = 32 + R.val) (hC : C'.val = C.val)
    (hk : k'.val = k.val) :
    halfTile (View.ld x1 r0_0) (View.ld x2 r0_1) (View.ld x3 r0_1) (View.ld x0 r0_4) (ix4 (0 : Fin 1) R C k)
      = blockAt x0 x1 x2 x3 R' C' k' := by
  obtain rfl : C = C' := (Fin.ext hC).symm
  obtain rfl : k = k' := (Fin.ext hk).symm
  rw [halfTile_apply _ _ _ _ ⟨R.val / 2, by omega⟩ ⟨C.val / 2, by omega⟩ ⟨R.val % 2, by omega⟩ ⟨C.val % 2, by omega⟩ k R C
    (by show R.val = 2 * (R.val / 2) + R.val % 2; omega) (by show C.val = 2 * (C.val / 2) + C.val % 2; omega)]
  unfold blockAt
  rw [View.ld_unit_zero (S := S512x256) hz2, View.ld_unit_zero (S := S128) hz1 _ x2, View.ld_unit_zero (S := S128) hz1 _ x3]
  refine congrArg (fun row => lnRow _ _ row _ _ k) (funext fun j => Finset.sum_congr rfl fun d _ => ?_)
  rw [ld_hi_apply x0 _ d (blkRow R' C) (by show R'.val / 2 * 64 + C.val / 2 = 1024 + (R.val / 2 * 64 + C.val / 2); omega)]
  exact congrArg (fun e => x0 (ix3 (0 : Fin 1) (blkRow R' C) d) * x1 (ix2 e d)) (Fin.ext (by
    show R.val % 2 * 256 + C.val % 2 * 128 + j.val = R'.val % 2 * 256 + C.val % 2 * 128 + j.val; omega))

/-- THE BLOCK AFTER THE BODY is `blockFn` of the input blocks. -/
theorem out_apply (x0 : Vec Ideal S1x2048x256 .f32) (x1 : Vec Ideal S512x256 .bf16) (x2 x3 : Vec Ideal S128 .f32) :
    out0_4 x0 x1 x2 x3 = blockFn x0 x1 x2 x3 := by
  rw [out_eq]
  funext y
  refine View.canon_apply_of_pieces (blockFn x0 x1 x2 x3) _ ?_ y (cover0_4 _ _ y)
  intro p hp x
  simp only [List.mem_cons, List.mem_nil_iff, or_false] at hp
  rcases hp with rfl | rfl
  · obtain ⟨u, R, C, k, rfl⟩ : ∃ (u : Fin 1) (R : Fin 32) (C : Fin 128) (k : Fin 128), x = ix4 u R C k := ⟨x 0, x 1, x 2, x 3, eq_ix4 x⟩
    obtain rfl : u = 0 := Fin.ext (by omega)
    exact hi_piece x0 x1 x2 x3 R C k _ _ _ (by show 32 + 1 * R.val = 32 + R.val; omega) (by show 0 + 1 * C.val = C.val; omega)
      (by show 0 + 1 * k.val = k.val; omega)
  · obtain ⟨u, R, C, k, rfl⟩ : ∃ (u : Fin 1) (R : Fin 32) (C : Fin 128) (k : Fin 128), x = ix4 u R C k := ⟨x 0, x 1, x 2, x 3, eq_ix4 x⟩
    obtain rfl : u = 0 := Fin.ext (by omega)
    exact lo_piece x0 x1 x2 x3 R C k _ _ _ (by show 0 + 1 * R.val = R.val; omega) (by show 0 + 1 * C.val = C.val; omega)
      (by show 0 + 1 * k.val = k.val; omega)

end Cert.KernelIdeal.PatchBody

end
-- ==== Proof.ArrayValue.lean ====
/-
  The kernel's result array as one function of the argument arrays.

  The grid has 16 × 2 points `(b, s)`. At `(b, s)` the input window holds rows `2048·s … 2048·s + 2047` of image `b`
  (its 32 image rows `32·s … 32·s + 31`, 64 columns each), the weights, gain and shift are whole, and the output window
  is rows `64·s … 64·s + 63` of image `b` of the `[16, 128, 128, 128]` result. So entry `(b, Y, X, k)` of the result is
  the layer normalisation, at channel `k`, of input row `64·(Y / 2) + X / 2` of image `b` times the weights' rows
  `256·(Y % 2) + 128·(X % 2) + j` (`pixels`): the block formula with the point's offsets added, which do not change
  `Y % 2` (64 is even) and add `2048·s` to the input row. The blocks tile the result, so after the run the array is
  `pixels` everywhere; the host then re-lays it as `[16, 16384, 128]`.
-/
import proofs.«171228_j1425929142550_2_alg».proof.Proof.BlockValue
import Idealize.ShloMosaic.Lib.Pipeline.Value
import Idealize.ShloMosaic.Lib.StableHlo.Run

set_option maxRecDepth 16384

noncomputable section

namespace Cert.KernelIdeal.PatchValue

open Idealize.ShloMosaic Idealize.ShloMosaic.TcCoe Idealize.SL.Sem Idealize.ShloMosaic.StableHlo
open Cert.KernelIdeal Cert.KernelIdeal.Gen Cert.KernelIdeal.PatchBody Cert.LibLaneNorm
open Idealize.ShloMosaic.ValueIdx
open Idealize.ShloMosaic.Pipeline (Dat Cfg Window)

/-- The input row that result position `(Y, X)` is computed from. -/
def imgRow (Y X : Fin 128) : Fin 4096 := ⟨Y.val / 2 * 64 + X.val / 2, by omega⟩

/-- The weight row that channel `j` of result position `(Y, X)` is computed from. -/
def imgChan (Y X : Fin 128) (j : Fin 128) : Fin 512 := ⟨Y.val % 2 * 256 + X.val % 2 * 128 + j.val, by omega⟩

/-- The result array `[16, 128, 128, 128]` from the input, the weights, the gain and the shift. -/
def pixels (A0 : FVec Ideal S16x4096x256 .f32) (A1 : FVec Ideal S512x256 .bf16) (A2 A3 : FVec Ideal S128 .f32) :
    FVec Ideal S16x128x128x128 .f32 := fun i =>
  lnRow (Ideal.ofBits .f32 0x43000000#32) (Ideal.ofBits .f32 0x3727C5AC#32)
    (fun j => ∑ d : Fin 256, A0 (ix3 (i 0) (imgRow (i 1) (i 2)) d) * A1 (ix2 (imgChan (i 1) (i 2) j) d))
    (fun j => A2 (ix1 j)) (fun j => A3 (ix1 j)) (i 3)

variable (m : (ℓ : Loc nD τ sig) → Buf (Elt Ideal) ℓ) (ρ : Dev nD → PrngReg)

/-- The printed index maps, decided over the 32 grid points: the input window moves with the output window on the
    image and row-block axes, every other block index is zero, and the output's block indices stay in range. -/
theorem idx_facts : ∀ t : Fin cfg0.N, win0_0.index t (0 : Fin 3) = win0_4.index t (0 : Fin 4)
    ∧ win0_0.index t (1 : Fin 3) = win0_4.index t (1 : Fin 4)
    ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0
    ∧ win0_4.index t (2 : Fin 4) = 0 ∧ win0_4.index t (3 : Fin 4) = 0
    ∧ win0_4.index t (0 : Fin 4) ≤ 15 ∧ win0_4.index t (1 : Fin 4) ≤ 1 :=
  (by decide +kernel : ∀ t : Fin grid0.N, _)

/-- Every block of the result is some point's. -/
theorem idx_onto : ∀ (q0 : Fin 16) (q1 : Fin 2), ∃ t : Fin cfg0.N, win0_4.index t = ![q0.val, q1.val, 0, 0] :=
  (by decide +kernel : ∀ (q0 : Fin 16) (q1 : Fin 2), ∃ t : Fin grid0.N, win0_4.index t = ![q0.val, q1.val, 0, 0])

/-- WHAT POINT `t` WRITES BACK is block `t` of `pixels` of the arrays as the region finds them. -/
theorem flushed_eq (c : Dev nD) (t : Fin cfg0.N) :
    (dats m 0 c).flushed 4 t = ((cfg0.win 4).blk t).view.read (Elt Ideal)
      (pixels (V m c main_arg0) (V m c main_v0) (V m c main_arg2) (V m c main_arg3)) := by
  show (cfg0.win 4).cut (grid0.coords t) ((dats m 0 c).after 4 t) = _
  rw [after0_4, out_apply]
  obtain ⟨e0, e1, e2, e3, e4, e5, e6, e7, e8, e9, e10⟩ := idx_facts t
  funext y
  show blockAt (iblk m c 0 t) (iblk m c 1 t) (iblk m c 2 t) (iblk m c 3 t) (y 1) (y 2) (y 3)
    = pixels (V m c main_arg0) (V m c main_v0) (V m c main_arg2) (V m c main_arg3) (((cfg0.win 4).blk t).view.emb y)
  unfold blockAt pixels
  have hy1 : (y 1).val < 64 := (y 1).isLt
  have hy2 : (y 2).val < 128 := (y 2).isLt
  have hy3 : (y 3).val < 128 := (y 3).isLt
  have hk : ((((cfg0.win 4).blk t).view.emb y) 3 : Fin 128) = (y 3) := Fin.ext (by
    show win0_4.index t (3 : Fin 4) * 128 + 1 * (y 3).val = (y 3).val; omega)
  rw [hk]
  have h0 : ∀ d : Fin 256, iblk m c 0 t (ix3 (0 : Fin 1) (blkRow (y 1) (y 2)) d)
      = V m c main_arg0 (ix3 ((((cfg0.win 4).blk t).view.emb y) 0) (imgRow ((((cfg0.win 4).blk t).view.emb y) 1) ((((cfg0.win 4).blk t).view.emb y) 2)) d) := by
    intro d
    show V m c main_arg0 (((cfg0.win 0).blk t).view.emb (ix3 (0 : Fin 1) (blkRow (y 1) (y 2)) d)) = _
    refine congrArg (V m c main_arg0) (funext fun a => Fin.ext ?_)
    match a with
    | ⟨0, _⟩ =>
      show win0_0.index t (0 : Fin 3) * 1 + 1 * 0 = win0_4.index t (0 : Fin 4) * 1 + 1 * (y 0).val
      have : (y 0).val < 1 := (y 0).isLt
      omega
    | ⟨1, _⟩ =>
      show win0_0.index t (1 : Fin 3) * 2048 + 1 * ((y 1).val / 2 * 64 + (y 2).val / 2)
        = (win0_4.index t (1 : Fin 4) * 64 + 1 * (y 1).val) / 2 * 64 + (win0_4.index t (2 : Fin 4) * 128 + 1 * (y 2).val) / 2
      omega
    | ⟨2, _⟩ =>
      show win0_0.index t (2 : Fin 3) * 256 + 1 * d.val = d.val
      omega
  have h1 : ∀ (j : Fin 128) (d : Fin 256), iblk m c 1 t (ix2 (blkChan (y 1) (y 2) j) d)
      = V m c main_v0 (ix2 (imgChan ((((cfg0.win 4).blk t).view.emb y) 1) ((((cfg0.win 4).blk t).view.emb y) 2) j) d) := by
    intro j d
    show V m c main_v0 (((cfg0.win 1).blk t).view.emb (ix2 (blkChan (y 1) (y 2) j) d)) = _
    refine congrArg (V m c main_v0) (funext fun a => Fin.ext ?_)
    match a with
    | ⟨0, _⟩ =>
      show win0_1.index t (0 : Fin 2) * 512 + 1 * ((y 1).val % 2 * 256 + (y 2).val % 2 * 128 + j.val)
        = (win0_4.index t (1 : Fin 4) * 64 + 1 * (y 1).val) % 2 * 256 + (win0_4.index t (2 : Fin 4) * 128 + 1 * (y 2).val) % 2 * 128 + j.val
      omega
    | ⟨1, _⟩ =>
      show win0_1.index t (1 : Fin 2) * 256 + 1 * d.val = d.val
      omega
  have h2 : ∀ j : Fin 128, iblk m c 2 t (ix1 j) = V m c main_arg2 (ix1 j) := by
    intro j
    show V m c main_arg2 (((cfg0.win 2).blk t).view.emb (ix1 j)) = V m c main_arg2 (ix1 j)
    refine congrArg (V m c main_arg2) (funext fun a => Fin.ext ?_)
    match a with
    | ⟨0, _⟩ => show win0_2.index t (0 : Fin 1) * 128 + 1 * j.val = j.val; omega
  have h3 : ∀ j : Fin 128, iblk m c 3 t (ix1 j) = V m c main_arg3 (ix1 j) := by
    intro j
    show V m c main_arg3 (((cfg0.win 3).blk t).view.emb (ix1 j)) = V m c main_arg3 (ix1 j)
    refine congrArg (V m c main_arg3) (funext fun a => Fin.ext ?_)
    match a with
    | ⟨0, _⟩ => show win0_3.index t (0 : Fin 1) * 128 + 1 * j.val = j.val; omega
  simp only [h0, h1, h2, h3]

/-- An index of the result is in point `t`'s block iff each coordinate is in the block's range on its axis. -/
theorem mem_blk (t : Fin cfg0.N) (i : S16x128x128x128.Idx) :
    i ∈ ((cfg0.win 4).blk t).view.set ↔ ∀ a : Fin 4, win0_4.index t a * S1x64x128x128.size a ≤ (i a).val
      ∧ (i a).val < win0_4.index t a * S1x64x128x128.size a + S1x64x128x128.size a := by
  show i ∈ ((View.whole main_v1).slice (win0_4.rect t)).set ↔ _
  rw [View.set_slice_whole, Rect.mem_set_unit]
  exact Iff.rfl

/-- The blocks tile the result: every index is in the block of the point `(i 0, (i 1) / 64)`. -/
theorem cover (i : S16x128x128x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 1).val / 64, by omega⟩
  have q0 : win0_4.index t (0 : Fin 4) = (i 0).val := congrFun ht 0
  have q1 : win0_4.index t (1 : Fin 4) = (i 1).val / 64 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE RESULT ARRAY after the region is `pixels` of the arrays as the region finds them. -/
theorem final (c : Dev nD) : (dats m 0 c).arrAt 4 cfg0.N
    = pixels (V m c main_arg0) (V m c main_v0) (V m c main_arg2) (V m c main_arg3) :=
  (dats m 0 c).arrAt_eq_of_cover 4 _ (fun t _ => flushed_eq m c t) cover

end Cert.KernelIdeal.PatchValue

end
-- ==== Proof.PatchSpec.lean ====
/-
  The specification: patch expansion followed by layer normalisation, as one function of the argument arrays.

  The input is 16 images of 64 × 64 pixels with 256 channels, stored as `[16, 4096, 256]` (pixel `(h, w)` is row
  `64·h + w`). Every pixel is multiplied by the `[512, 256]` weights (both last axes contracted), and its 512 numbers
  are read as a 2 × 2 patch of sub-pixels `(p1, p2)` with 128 channels each (number `256·p1 + 128·p2 + j` is channel
  `j` of sub-pixel `(p1, p2)`). The enlarged image is 128 × 128, sub-pixel `(p1, p2)` of pixel `(h, w)` at
  `(2·h + p1, 2·w + p2)`, stored as `[16, 16384, 128]` (position `(Y, X)` is row `128·Y + X`); every row is then
  layer-normalised over its 128 channels with divisor 128 and the literal offset.
  So row `r` of the result comes from input row `64·(r / 256) + (r % 128) / 2` and from the weights' rows
  `256·(r / 128 % 2) + 128·(r % 2) + j`.
-/
import proofs.«171228_j1425929142550_2_alg».proof.Proof.LibLaneNorm

noncomputable section

namespace Cert.PatchSpec

open Idealize.ShloMosaic Idealize.ShloMosaic.ValueIdx Cert.LibLaneNorm

/-- The input row that result row `r` is computed from. -/
def srcRow (r : Fin 16384) : Fin 4096 := ⟨r.val / 256 * 64 + r.val % 128 / 2, by omega⟩

/-- The weight row that channel `j` of result row `r` is computed from. -/
def srcChan (r : Fin 16384) (j : Fin 128) : Fin 512 := ⟨r.val / 128 % 2 * 256 + r.val % 2 * 128 + j.val, by omega⟩

/-- The result `[16, 16384, 128]` from the input, the weights, the gain and the shift. -/
def patchRows (A0 : (⟨3, ![16, 4096, 256]⟩ : Shape).Idx → EReal) (A1 : (⟨2, ![512, 256]⟩ : Shape).Idx → EReal)
    (A2 A3 : (⟨1, ![128]⟩ : Shape).Idx → EReal) : (⟨3, ![16, 16384, 128]⟩ : Shape).Idx → EReal := fun i =>
  lnRow (Ideal.ofBits .f32 0x43000000#32) (Ideal.ofBits .f32 0x3727C5AC#32)
    (fun j => ∑ d : Fin 256, A0 (ix3 (i 0) (srcRow (i 1)) d) * A1 (ix2 (srcChan (i 1) j) d))
    (fun j => A2 (ix1 j)) (fun j => A3 (ix1 j)) (i 2)

end Cert.PatchSpec

end
-- ==== Proof.KernelRun.lean ====
/-
  The kernel's run, read: the result is the specification of the argument arrays.

  Before the region the host narrows the weights' format, which changes no value at the ideal instance, so the region
  finds the weights as launched (`V_weights`). After the region the host re-lays the `[16, 128, 128, 128]` result as
  `[16, 16384, 128]`: row `r` is position `(r / 128, r % 128)`, and the result array's formula at that position is the
  specification's at row `r` — `(r / 128) / 2 = r / 256`, `(r % 128) % 2 = r % 2` (`result_eq`). `run` re-posts the
  generated frame run with the result named and the four arguments unchanged.
-/
import proofs.«171228_j1425929142550_2_alg».proof.Proof.ArrayValue
import proofs.«171228_j1425929142550_2_alg».proof.Proof.PatchSpec

set_option maxRecDepth 16384

noncomputable section

namespace Cert.KernelIdeal.PatchValue

open Idealize.ShloMosaic Idealize.ShloMosaic.TcCoe Idealize.SL.Sem Idealize.ShloMosaic.StableHlo
open Cert.KernelIdeal Cert.KernelIdeal.Gen Cert.KernelIdeal.PatchBody Cert.LibLaneNorm Cert.PatchSpec
open Idealize.ShloMosaic.ValueIdx
open Idealize.ShloMosaic.Pipeline (Dat Cfg Window)

variable (m : (ℓ : Loc nD τ sig) → Buf (Elt Ideal) ℓ) (ρ : Dev nD → PrngReg)

/-- The region finds the weights as launched: the host's change of format is the identity on the values. -/
theorem V_weights (c : Dev nD) :
    (V m c main_v0 : S512x256.Idx → EReal) = m ((c : Thread nD τ).loc main_arg1) := by
  show StableHlo.after hostOps0 (fun b => m (c, b)) (Proc.devRef .tc main_v0) = _
  after_results
  rfl

/-- Position `(r / 128, r % 128)` of the enlarged image is row `r` of the re-laid result. -/
theorem relay_apply (P : FVec Ideal S16x128x128x128 .f32) (h : S16x128x128x128.ShapeCasts S16x16384x128)
    (b : Fin 16) (r : Fin 16384) (k : Fin 128) :
    shapeCast S16x16384x128 P h (ix3 b r k) = P (ix4 b (⟨r.val / 128, by omega⟩ : Fin 128) (⟨r.val % 128, by omega⟩ : Fin 128) k) :=
  shapeCast_apply P h _ _ (by
    rw [Shape.rowMajor_val_four, Shape.rowMajor_val_three]
    show ((b.val * 128 + r.val / 128) * 128 + r.val % 128) * 128 + k.val = (b.val * 16384 + r.val) * 128 + k.val
    omega)

/-- The result array's formula, re-laid, is the specification. -/
theorem pixels_relay (A0 : FVec Ideal S16x4096x256 .f32) (A1 : FVec Ideal S512x256 .bf16) (A2 A3 : FVec Ideal S128 .f32)
    (h : S16x128x128x128.ShapeCasts S16x16384x128) :
    shapeCast S16x16384x128 (pixels A0 A1 A2 A3) h = patchRows A0 A1 A2 A3 := by
  funext i
  obtain ⟨b, r, k, rfl⟩ : ∃ (b : Fin 16) (r : Fin 16384) (k : Fin 128), i = ix3 b r k := ⟨i 0, i 1, i 2, eq_ix3 i⟩
  rw [relay_apply]
  have hr := r.isLt
  have e1 : imgRow (⟨r.val / 128, by omega⟩ : Fin 128) (⟨r.val % 128, by omega⟩ : Fin 128) = srcRow r := Fin.ext (by
    show r.val / 128 / 2 * 64 + r.val % 128 / 2 = r.val / 256 * 64 + r.val % 128 / 2; omega)
  have e2 : ∀ j, imgChan (⟨r.val / 128, by omega⟩ : Fin 128) (⟨r.val % 128, by omega⟩ : Fin 128) j = srcChan r j := fun j => Fin.ext (by
    show r.val / 128 % 2 * 256 + r.val % 128 % 2 * 128 + j.val = r.val / 128 % 2 * 256 + r.val % 2 * 128 + j.val; omega)
  show lnRow _ _ (fun j => ∑ d : Fin 256, A0 (ix3 b (imgRow _ _) d) * A1 (ix2 (imgChan _ _ j) d)) _ _ k = _
  simp only [e1, e2]
  rfl

/-- THE RESULT after the host's re-laying is the specification of the arguments. -/
theorem result_eq (c : Dev nD) :
    Pipeline.afterTail₀ cfgs (dats m) 0 (V0 m) [hostOps1] c main_v2
      = patchRows (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = pixels (V m c main_arg0) (V m c main_v0) (V m c main_arg2) (V m c main_arg3)
    from (Pipeline.withArrays_arr spec0 launch0.win.arr_inj c _ _ 4).trans (final m c)]
  rw [V_main_arg0, V_weights, V_main_arg2, V_main_arg3]
  exact pixels_relay _ _ _ _ _

/-- The frame run re-posted: the result at the specification of the arguments, the arguments unchanged. -/
theorem run : θ_run defs (onTc (τ := τ) (main (F := Ideal))) ⟨m, fun _ => 0, ρ⟩ fun r => ∀ c : Dev nD,
      r.2.mem ((c.tc : Thread nD τ).loc main_v2)
        = patchRows (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.PatchValue

end
-- ==== Proof.RefValue.lean ====
/-
  The reference's result is the specification.

  The reference multiplies every input row by the weights, re-lays the `[16, 4096, 512]` product as
  `[16, 64, 64, 2, 2, 128]` (image, h, w, p1, p2, channel), swaps `w` and `p1`, re-lays it as `[16, 16384, 128]` and
  layer-normalises the rows. Row `r` of the re-laid product splits as `r = ((h·2 + p1)·64 + w)·2 + p2`, so its entry `j`
  is the product at input row `64·h + w`, number `256·p1 + 128·p2 + j` (`v3_apply`); the normalisation is the same
  operations in the same order as `lnRow`, the host's sums starting from the zero word (`ref_eq`).
-/
import proofs.«171228_j1425929142550_2_alg».proof.Proof.Gen.ReferenceIdeal.Read
import proofs.«171228_j1425929142550_2_alg».proof.Proof.PatchSpec
import Idealize.ShloMosaic.Lib.ValueIdxRank6

noncomputable section

namespace Cert.ReferenceIdeal.PatchRef

open Idealize.ShloMosaic Idealize.ShloMosaic.ValueIdx Idealize.SL.Sem
open Cert.ReferenceIdeal Cert.ReferenceIdeal.Gen Cert.ReferenceIdeal.Read Cert.LibLaneNorm Cert.PatchSpec

variable (x0 : FVec Ideal S16x4096x256 .f32) (x1 : FVec Ideal S512x256 .f32)

/-- The re-laid product at `(b, r, j)`: input row `srcRow r` of image `b` times weight row `srcChan r j`. -/
theorem v3_apply (b : Fin 16) (r : Fin 16384) (j : Fin 128) :
    val_main_v3 (F := Ideal) x0 x1 (ix3 b r j) = ∑ d : Fin 256, x0 (ix3 b (srcRow r) d) * x1 (ix2 (srcChan r j) d) := by
  have hr := r.isLt
  unfold val_main_v3
  rw [shapeCast_apply (val_main_v2 (F := Ideal) x0 x1) shapeCasts_S16x64x2x64x2x128_S16x16384x128 (ix3 b r j)
    (ix6 b (⟨r.val / 256, by omega⟩ : Fin 64) (⟨r.val / 128 % 2, by omega⟩ : Fin 2) (⟨r.val % 128 / 2, by omega⟩ : Fin 64)
      (⟨r.val % 2, by omega⟩ : Fin 2) j) (by
      rw [Shape.rowMajor_val_six, Shape.rowMajor_val_three]
      show ((((b.val * 64 + r.val / 256) * 2 + r.val / 128 % 2) * 64 + r.val % 128 / 2) * 2 + r.val % 2) * 128 + j.val
        = (b.val * 16384 + r.val) * 128 + j.val
      omega)]
  rw [val_main_v2_apply]
  unfold val_main_v1
  rw [shapeCast_apply (val_main_v0 (F := Ideal) x0 x1) shapeCasts_S16x4096x512_S16x64x64x2x2x128 _ (ix3 b (srcRow r) (srcChan r j)) (by
      rw [Shape.rowMajor_val_three, Shape.rowMajor_val_six]
      show (b.val * 4096 + (r.val / 256 * 64 + r.val % 128 / 2)) * 512 + (r.val / 128 % 2 * 256 + r.val % 2 * 128 + j.val)
        = ((((b.val * 64 + r.val / 256) * 64 + r.val % 128 / 2) * 2 + r.val / 128 % 2) * 2 + r.val % 2) * 128 + j.val
      omega)]
  rw [val_main_v0_apply]
  refine Finset.sum_congr rfl fun d _ => ?_
  have el : lidx_main_v0 (ix3 b (srcRow r) (srcChan r j)) d = ix3 b (srcRow r) d :=
    funext fun a => Fin.ext (by match a with | ⟨0, _⟩ => rfl | ⟨1, _⟩ => rfl | ⟨2, _⟩ => rfl)
  have er : ridx_main_v0 (ix3 b (srcRow r) (srcChan r j)) d = ix2 (srcChan r j) d :=
    funext fun a => Fin.ext (by match a with | ⟨0, _⟩ => rfl | ⟨1, _⟩ => rfl)
  rw [el, er]

theorem i8 (b : Fin 16) (r : Fin 16384) (k : Fin 128) : idx_main_v8 (ix3 b r k) = ix3 b r (0 : Fin 1) :=
  funext fun a => Fin.ext (by match a with | ⟨0, _⟩ => rfl | ⟨1, _⟩ => rfl | ⟨2, _⟩ => rfl)
theorem i15 (b : Fin 16) (r : Fin 16384) (k : Fin 128) : idx_main_v15 (ix3 b r k) = ix3 b r (0 : Fin 1) :=
  funext fun a => Fin.ext (by match a with | ⟨0, _⟩ => rfl | ⟨1, _⟩ => rfl | ⟨2, _⟩ => rfl)
theorem i20 (b : Fin 16) (r : Fin 16384) (k : Fin 128) : idx_main_v20 (ix3 b r k) = ix3 b r (0 : Fin 1) :=
  funext fun a => Fin.ext (by match a with | ⟨0, _⟩ => rfl | ⟨1, _⟩ => rfl | ⟨2, _⟩ => rfl)
theorem i5 (b : Fin 16) (r : Fin 16384) (u : Fin 1) : idx_main_v5 (ix3 b r u) = ix2 b r :=
  funext fun a => Fin.ext (by match a with | ⟨0, _⟩ => rfl | ⟨1, _⟩ => rfl)
theorem i12 (b : Fin 16) (r : Fin 16384) (u : Fin 1) : idx_main_v12 (ix3 b r u) = ix2 b r :=
  funext fun a => Fin.ext (by match a with | ⟨0, _⟩ => rfl | ⟨1, _⟩ => rfl)
theorem i4 (b : Fin 16) (r : Fin 16384) (k : Fin 128) : idx_main_v4 (ix2 b r) k = ix3 b r k :=
  funext fun a => Fin.ext (by match a with | ⟨0, _⟩ => rfl | ⟨1, _⟩ => rfl | ⟨2, _⟩ => rfl)
theorem i11 (b : Fin 16) (r : Fin 16384) (k : Fin 128) : idx_main_v11 (ix2 b r) k = ix3 b r k :=
  funext fun a => Fin.ext (by match a with | ⟨0, _⟩ => rfl | ⟨1, _⟩ => rfl | ⟨2, _⟩ => rfl)
theorem i23 (b : Fin 16) (r : Fin 16384) (k : Fin 128) : idx_main_v22 (idx_main_v23 (ix3 b r k)) = ix1 k :=
  funext fun a => Fin.ext (by match a with | ⟨0, _⟩ => rfl)
theorem i26 (b : Fin 16) (r : Fin 16384) (k : Fin 128) : idx_main_v25 (idx_main_v26 (ix3 b r k)) = ix1 k :=
  funext fun a => Fin.ext (by match a with | ⟨0, _⟩ => rfl)

/-- The reference's row means at `(b, r, 0)`: the mean of row `(b, r)` of the re-laid product. -/
theorem mean_apply (b : Fin 16) (r : Fin 16384) :
    val_main_v7 (F := Ideal) x0 x1 (ix3 b r (0 : Fin 1))
      = rowMean (Ideal.ofBits .f32 0x43000000#32) (fun j => val_main_v3 (F := Ideal) x0 x1 (ix3 b r j)) := by
  rw [val_main_v7_apply, val_main_v5_apply, val_main_v4_apply, val_main_v6_apply, val_main_cst_apply, val_main_cst_0_apply, i5]
  simp only [i4, Ideal.hostDivf_def, Ideal.ofBits_def, Ideal.ofBits_zero_f32, zero_add]
  rfl

/-- THE REFERENCE'S RESULT is the specification. -/
theorem ref_eq (x2 x3 : FVec Ideal S128 .f32) : val_main_v27 (F := Ideal) x0 x1 x2 x3 = patchRows x0 x1 x2 x3 := by
  funext i
  obtain ⟨b, r, k, rfl⟩ : ∃ (b : Fin 16) (r : Fin 16384) (k : Fin 128), i = ix3 b r k := ⟨i 0, i 1, i 2, eq_ix3 i⟩
  rw [val_main_v27_apply, val_main_v24_apply, val_main_v26_apply, val_main_v25_apply, val_main_v23_apply, val_main_v22_apply,
    val_main_v21_apply, val_main_v20_apply, val_main_v19_apply, val_main_v18_apply, val_main_v17_apply, val_main_cst_3_apply,
    val_main_v16_apply, val_main_v15_apply, val_main_v14_apply, val_main_v13_apply, val_main_cst_2_apply, val_main_v12_apply,
    val_main_v11_apply, val_main_cst_1_apply, i15, i20, i23, i26, i12, mean_apply]
  simp only [i11, val_main_v10_apply, val_main_v9_apply, val_main_v8_apply, i8, mean_apply, v3_apply,
    Ideal.hostDivf_def, Ideal.ofBits_def, Ideal.ofBits_zero_f32, zero_add, Ideal.hostUnary_rsqrt_def, Ideal.addf_def,
    Ideal.subf_def, Ideal.mulf_def]
  rfl

end Cert.ReferenceIdeal.PatchRef

end
-- ==== Proof.lean ====
/- Patch expansion with layer normalisation: a fused kernel against the plain reference, on the extended reals.

   Both programs take 16 images of 64 × 64 pixels with 256 channels, a `[512, 256]` weight matrix, a gain and a shift of
   128 channels, multiply every pixel by the weights, read its 512 numbers as a 2 × 2 patch of sub-pixels with 128
   channels each, place sub-pixel `(p1, p2)` of pixel `(h, w)` at `(2·h + p1, 2·w + p2)` of a 128 × 128 image, and
   layer-normalise every position over its channels. The reference does this on whole arrays (product, re-laying through
   a rank-6 shape with one swap of axes, normalisation). The kernel works on blocks of 32 image rows in two halves of 16,
   normalises each of the four channel groups BEFORE interleaving them — the normalisation is per position, so the order
   does not matter — and the host re-lays the `[16, 128, 128, 128]` result as `[16, 16384, 128]`.
   At the ideal instance both results are ONE function of the arguments, `Cert.PatchSpec.patchRows`: the same products
   summed over the same index set, the same normalisation operations in the same order, the same literals; only the
   bookkeeping of indices differs. No algebraic law beyond that is used, so the precondition is never opened.

   The modules: Proof/PatchSpec.lean (the specification), Proof/LibLaneNorm.lean (one row's normalisation and the
   whole-array chain read at an index), Proof/PixelShuffle.lean (the interleave read at an index), Proof/BodyTerm.lean
   (one half of the body as one term), Proof/HalfRead.lean and Proof/BlockValue.lean (the output block as a function of
   the input blocks), Proof/ArrayValue.lean and Proof/KernelRun.lean (the blocks tile the result; the host's re-laying;
   the kernel's run re-posted at the specification), Proof/RefValue.lean (the reference's result is the specification).
   The frames are the generated ones; the idealisation rewrote nothing, so `preserves` is `True`. -/
import proofs.«171228_j1425929142550_2_alg».proof.Defs
import proofs.«171228_j1425929142550_2_alg».proof.Proof.Gen.Kernel
import proofs.«171228_j1425929142550_2_alg».proof.Proof.Gen.Kernel.Skeleton
import proofs.«171228_j1425929142550_2_alg».proof.Proof.Gen.Kernel.Launch
import proofs.«171228_j1425929142550_2_alg».proof.Proof.Gen.Kernel.Points
import proofs.«171228_j1425929142550_2_alg».proof.Proof.Gen.Kernel.Frame
import proofs.«171228_j1425929142550_2_alg».proof.Proof.Gen.KernelIdeal
import proofs.«171228_j1425929142550_2_alg».proof.Proof.Gen.KernelIdeal.Skeleton
import proofs.«171228_j1425929142550_2_alg».proof.Proof.Gen.KernelIdeal.Launch
import proofs.«171228_j1425929142550_2_alg».proof.Proof.Gen.KernelIdeal.Points
import proofs.«171228_j1425929142550_2_alg».proof.Proof.Gen.KernelIdeal.Frame
import proofs.«171228_j1425929142550_2_alg».proof.Proof.Gen.ReferenceIdeal
import proofs.«171228_j1425929142550_2_alg».proof.Proof.Gen.ReferenceIdeal.Run
import proofs.«171228_j1425929142550_2_alg».proof.Proof.Gen.ReferenceIdeal.Read
import proofs.«171228_j1425929142550_2_alg».proof.Proof.Gen.Pre_finite_inputs
import proofs.«171228_j1425929142550_2_alg».proof.Proof.KernelRun
import proofs.«171228_j1425929142550_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealised kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the specification of the arguments as result. -/
theorem algebraic : Cert.algebraic_KernelIdeal_ReferenceIdeal := by
  intro m ρ m' ρ' _ hagree
  refine ⟨_, Cert.KernelIdeal.PatchValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.PatchRef.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
